-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8192 : Shape := ⟨2, ![16384, 8192]⟩
abbrev S_ : Shape := ⟨0, ![]⟩

class Facts : Prop where
  bcast_S_S16384x8192 : S_.BroadcastsInDim S16384x8192 (![] : Fin 0 → Fin S16384x8192.rank)
  reducesTo_S16384x8192_S_d0_1 : S16384x8192.ReducesTo [0, 1] S_
  h_S_ : 0 < S_.numel

variable [Facts]

def fn {F : FTy → Type} [FloatOps F] (main_arg0 : FVec F S16384x8192 .f32) (main_arg1 : FVec F S16384x8192 .f32) : IVec S_ 1 :=
  let main_v0 : FVec F S16384x8192 .f32 := Host.absf main_arg0
  let main_cst : FVec F S_ .f32 := constant S_ .f32 0x7F800000#32
  let main_v1 : FVec F S16384x8192 .f32 := broadcastInDim S16384x8192 ![] bcast_S_S16384x8192 main_cst
  let main_v2 : IVec S16384x8192 1 := cmpf .olt main_v0 main_v1
  let main_c : IVec S_ 1 := constantI S_ 1 1#1
  let main_v3 : IVec S_ 1 := (fun x v => Host.reduce IntOp.andi x v reducesTo_S16384x8192_S_d0_1 h_S_) main_v2 main_c
  let main_v4 : FVec F S16384x8192 .f32 := Host.absf main_arg1
  let main_cst_0 : FVec F S_ .f32 := constant S_ .f32 0x7F800000#32
  let main_v5 : FVec F S16384x8192 .f32 := broadcastInDim S16384x8192 ![] bcast_S_S16384x8192 main_cst_0
  let main_v6 : IVec S16384x8192 1 := cmpf .olt main_v4 main_v5
  let main_c_1 : IVec S_ 1 := constantI S_ 1 1#1
  let main_v7 : IVec S_ 1 := (fun x v => Host.reduce IntOp.andi x v reducesTo_S16384x8192_S_d0_1 h_S_) main_v6 main_c_1
  let main_v8 : IVec S_ 1 := andi main_v3 main_v7
  main_v8
-- ==== Kernel.lean ====
abbrev S16384x8192 : Shape := ⟨2, ![16384, 8192]⟩
abbrev S16384x1 : Shape := ⟨2, ![16384, 1]⟩
abbrev S128x8192 : Shape := ⟨2, ![128, 8192]⟩
abbrev S128x1 : Shape := ⟨2, ![128, 1]⟩
abbrev S128 : Shape := ⟨1, ![128]⟩
abbrev S_ : Shape := ⟨0, ![]⟩
abbrev S1x1 : Shape := ⟨2, ![1, 1]⟩

abbrev nBuf : Space → Nat
  | .hbm => 8
  | .vmem => 6
  | .smem => 0
  | _ => 0

abbrev bufTy : (tb : Table) → Fin (tcTables nBuf tb) → BufTy
  | .hbm, ⟨0, _⟩ => ⟨S16384x8192, .f32⟩
  | .hbm, ⟨1, _⟩ => ⟨S16384x8192, .f32⟩
  | .hbm, ⟨2, _⟩ => ⟨S16384x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x1, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x1, .f32⟩
  | .local _ .vmem, ⟨5, _⟩ => ⟨S128x1, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  shapeCasts_S128_S128x1 : S128.ShapeCasts S128x1
  natLt_1_32 : 1 < 32
  inb_S128x1_S128x1_0_0 : ∀ a, (![0, 0] : Fin 2 → Nat) a + S128x1.size a ≤ S128x1.size a
  h_S128x1 : 0 < S128x1.numel
  reducesTo_S16384x1_S_d0_1 : S16384x1.ReducesTo [0, 1] S_
  h_S_ : 0 < S_.numel
  shapeCasts_S_S1x1 : S_.ShapeCasts S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S16384x8192.size a
  hwx0_0 : ∀ i : grid0.Coords, EltTy.bits .f32 = 32 ∨ (Rect.block (s := S16384x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S16384x8192.size a
  hwx0_1 : ∀ i : grid0.Coords, EltTy.bits .f32 = 32 ∨ (Rect.block (s := S16384x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S16384x1.size a
  hwx0_2 : ∀ i : grid0.Coords, EltTy.bits .f32 = 32 ∨ (Rect.block (s := S16384x1) S128x1.size (cc0_transform_2 i) (hinb0_2 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x8192 : Shape := ⟨2, ![16384, 8192]⟩
abbrev S_ : Shape := ⟨0, ![]⟩
abbrev S16384 : Shape := ⟨1, ![16384]⟩
abbrev S1x1 : Shape := ⟨2, ![1, 1]⟩

abbrev nBuf : Space → Nat
  | .hbm => 51
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S16384x8192, .f32⟩
  | .hbm, ⟨2, _⟩ => ⟨S_, .f32⟩
  | .hbm, ⟨3, _⟩ => ⟨S16384x8192, .f32⟩
  | .hbm, ⟨4, _⟩ => ⟨S16384x8192, .i1⟩
  | .hbm, ⟨5, _⟩ => ⟨S16384x8192, .f32⟩
  | .hbm, ⟨6, _⟩ => ⟨S_, .f32⟩
  | .hbm, ⟨7, _⟩ => ⟨S16384x8192, .f32⟩
  | .hbm, ⟨8, _⟩ => ⟨S16384x8192, .f32⟩
  | .hbm, ⟨9, _⟩ => ⟨S16384x8192, .f32⟩
  | .hbm, ⟨10, _⟩ => ⟨S_, .f32⟩
  | .hbm, ⟨11, _⟩ => ⟨S16384x8192, .f32⟩
  | .hbm, ⟨12, _⟩ => ⟨S16384x8192, .f32⟩
  | .hbm, ⟨13, _⟩ => ⟨S_, .f32⟩
  | .hbm, ⟨14, _⟩ => ⟨S16384x8192, .f32⟩
  | .hbm, ⟨15, _⟩ => ⟨S16384x8192, .f32⟩
  | .hbm, ⟨16, _⟩ => ⟨S16384x8192, .f32⟩
  | .hbm, ⟨17, _⟩ => ⟨S_, .f32⟩
  | .hbm, ⟨18, _⟩ => ⟨S16384x8192, .f32⟩
  | .hbm, ⟨19, _⟩ => ⟨S16384x8192, .f32⟩
  | .hbm, ⟨20, _⟩ => ⟨S16384x8192, .f32⟩
  | .hbm, ⟨21, _⟩ => ⟨S16384x8192, .f32⟩
  | .hbm, ⟨22, _⟩ => ⟨S_, .f32⟩
  | .hbm, ⟨23, _⟩ => ⟨S16384x8192, .f32⟩
  | .hbm, ⟨24, _⟩ => ⟨S16384x8192, .f32⟩
  | .hbm, ⟨25, _⟩ => ⟨S_, .f32⟩
  | .hbm, ⟨26, _⟩ => ⟨S_, .f32⟩
  | .hbm, ⟨27, _⟩ => ⟨S16384x8192, .f32⟩
  | .hbm, ⟨28, _⟩ => ⟨S16384x8192, .f32⟩
  | .hbm, ⟨29, _⟩ => ⟨S_, .f32⟩
  | .hbm, ⟨30, _⟩ => ⟨S16384, .f32⟩
  | .hbm, ⟨31, _⟩ => ⟨S16384x8192, .i32⟩
  | .hbm, ⟨32, _⟩ => ⟨S_, .i32⟩
  | .hbm, ⟨33, _⟩ => ⟨S16384, .i32⟩
  | .hbm, ⟨34, _⟩ => ⟨S16384, .f32⟩
  | .hbm, ⟨35, _⟩ => ⟨S_, .f32⟩
  | .hbm, ⟨36, _⟩ => ⟨S16384, .f32⟩
  | .hbm, ⟨37, _⟩ => ⟨S16384, .i1⟩
  | .hbm, ⟨38, _⟩ => ⟨S_, .f32⟩
  | .hbm, ⟨39, _⟩ => ⟨S16384, .f32⟩
  | .hbm, ⟨40, _⟩ => ⟨S16384, .f32⟩
  | .hbm, ⟨41, _⟩ => ⟨S16384, .f32⟩
  | .hbm, ⟨42, _⟩ => ⟨S_, .f32⟩
  | .hbm, ⟨43, _⟩ => ⟨S_, .f32⟩
  | .hbm, ⟨44, _⟩ => ⟨S16384, .f32⟩
  | .hbm, ⟨45, _⟩ => ⟨S16384, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S1x1, .f32⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_call1_v0 : Ref sig .tc := ⟨.hbm, 43, rfl⟩
abbrev main_call1_v1 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_cst_11 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]

class Facts₀ : Prop where
  bcast_S_S16384x8192 : S_.BroadcastsInDim S16384x8192 (![] : Fin 0 → Fin S16384x8192.rank)
  reducesTo_S16384x8192_S16384_d1 : S16384x8192.ReducesTo [1] S16384
  h_S_ : 0 < S_.numel
  natLt_1_32 : 1 < 32
  bcast_S_S16384 : S_.BroadcastsInDim S16384 (![] : Fin 0 → Fin S16384.rank)
  reducesTo_S16384_S_d0 : S16384.ReducesTo [0] S_
  shapeCasts_S_S1x1 : S_.ShapeCasts S1x1

variable [Facts₀]

class Facts : Prop extends Facts₀ where

variable [Facts]
-- ==== Proof.Spec.lean ====
/-
  The function both programs compute, written once over the extended reals.

  For arrays `p g` of 16384 rows of 8192 entries: an entry counts when `g ≠ 0`; a counted entry's loss is
  `1 - (√(p·g + ε) + √((1 - p)·(1 - g) + ε))`, an uncounted one's is `0`; a row's loss is the sum of its entries'
  losses over the larger of the number of counted entries and `1` when at least one entry counts, and `0` when
  none does; the result is the sum of the rows' losses over `16384`. The float words (`0`, `1`, `ε` the float
  nearest `1e-12`, `16384`) stay as the words both programs print: they are never evaluated, being the same on both
  sides. The number of counted entries is written as the sum of each entry's bit read as an integer — the form both
  programs reach, one by summing floats, the other by summing 32-bit integers (`LibBitCount.lean`).
-/
import Idealize.ShloMosaic.PureOps.Ideal
import Idealize.ShloMosaic.PureOps.Ideal.Laws
import Idealize.ShloMosaic.Lib.ValueIdx

noncomputable section

namespace Cert.MaskedLoss

open Idealize.ShloMosaic Idealize.ShloMosaic.ValueIdx

/-- Whether an entry counts: the bit of `g ≠ 0`. -/
def counts (g : EReal) : BitVec 1 := Ideal.cmp .une g (Ideal.ofBits .f32 0x00000000#32)

/-- One entry's loss: `1 - (√(p·g + ε) + √((1 - p)·(1 - g) + ε))` where it counts, `0` where it does not. -/
def entry (p g : EReal) : EReal :=
  Scalar.select (counts g)
    (Ideal.ofBits .f32 0x3F800000#32
      - (Ideal.sqrt (p * g + Ideal.ofBits .f32 0x2B8CBCCC#32)
        + Ideal.sqrt ((Ideal.ofBits .f32 0x3F800000#32 - p) * (Ideal.ofBits .f32 0x3F800000#32 - g)
            + Ideal.ofBits .f32 0x2B8CBCCC#32)))
    (Ideal.ofBits .f32 0x00000000#32)

/-- A row's number of counted entries, as an extended real: each entry's bit, widened to 32 bits and read as an integer. -/
def rowCount (G : Fin 8192 → EReal) : EReal :=
  ∑ k : Fin 8192, ((((counts (G k)).setWidth 32).toInt : ℝ) : EReal)

/-- A row's loss: the sum of its entries' losses over `max count 1` when some entry counts, else `0`. -/
def rowLoss (P G : Fin 8192 → EReal) : EReal :=
  Scalar.select (Ideal.cmp .ogt (rowCount G) (Ideal.ofBits .f32 0x00000000#32))
    (Ideal.div (∑ k : Fin 8192, entry (P k) (G k)) (max (rowCount G) (Ideal.ofBits .f32 0x3F800000#32)))
    (Ideal.ofBits .f32 0x00000000#32)

/-- The rows' losses of two arrays, row by row. -/
def rowLosses (p g : (⟨2, ![16384, 8192]⟩ : Shape).Idx → EReal) (r : Fin 16384) : EReal :=
  rowLoss (fun k => p (ix2 r k)) (fun k => g (ix2 r k))

/-- The result: the mean of the rows' losses, the divisor the float word of `16384`. -/
def meanLoss (p g : (⟨2, ![16384, 8192]⟩ : Shape).Idx → EReal) : EReal :=
  Ideal.div (∑ r : Fin 16384, rowLosses p g r) (Ideal.ofBits .f32 0x46800000#32)

end Cert.MaskedLoss

end
-- ==== Proof.LibColumnSum.lean ====
/-
  Two readings at an index that a sum along the second axis, kept as a one-entry-per-row column, needs, at any
  extents `a`, `b`.

  A vector of `a` entries recast as a column of `a` rows and one entry per row has, in row `i`, the vector's entry `i`: the
  two positions are the same in row-major order, `i = i·1 + 0`. And the sum of an `a × b` array along its second axis,
  from the zero word, has at `r` the sum over `k` of the array's entries `(r, k)`.
-/
import Idealize.ShloMosaic.Lib.ValueIdx
import Idealize.ShloMosaic.Lib.Pipeline.Value
import Idealize.ShloMosaic.PureOps.Ideal.Laws

noncomputable section

namespace Cert.Lib.ColumnSum

open Idealize.ShloMosaic Idealize.ShloMosaic.ValueIdx

/-- An `[a]` array cast to `[a, 1]` reads, at `(i, u)`, the operand at `i`, whatever the unit coordinate `u`. -/
theorem shapeCast_column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array of extended reals along its second axis, from the zero word, reads at `r` the sum over
    `k` of the entries `(r, k)`. -/
theorem lane_sum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (funext fun d => Fin.ext (by
      match d with
      | ⟨0, _⟩ => rfl
      | ⟨1, _⟩ => rfl)))

end Cert.Lib.ColumnSum

end
-- ==== Proof.KernelRow.lean ====
/-
  What the kernel body writes, read at one row.

  The body loads a `128 × 8192` block `x0` of `p` and the same block `x1` of `g` and stores a `128 × 1` column. Its
  arithmetic has two `128 × 8192` intermediates — every entry's loss (`lossBlock`), and every entry's bit as a float
  (`bitBlock`) — each summed along the lanes and recast as a column (`column`); the stored column is
  `column lossBlock / max (column bitBlock) 1` where `column bitBlock > 0`, and `0` elsewhere. A column of lane sums
  has, in row `r`, the sum over `k` of the block's entries `(r, k)`. So row `r` of the stored column is the row loss
  (`MaskedLoss.rowLoss`) of row `r` of the two blocks. The kernel's comparison `g ≠ 0` is the ordered one where the
  reference's is the unordered one; on the extended reals the two are one function.
-/
import proofs.«175779_j18829136626194_2_alg».proof.Proof.Gen.KernelIdeal.Skeleton
import proofs.«175779_j18829136626194_2_alg».proof.Proof.Spec
import proofs.«175779_j18829136626194_2_alg».proof.Proof.LibColumnSum

noncomputable section

namespace Cert.KernelIdeal.RowValue

open Cert.KernelIdeal Cert.KernelIdeal.Gen Idealize.ShloMosaic Idealize.ShloMosaic.ValueIdx

/-- Every entry's bit (`g ≠ 0`) widened to 32 bits and converted to a float. -/
def bitBlock (x1 : FVec Ideal S128x8192 .f32) : FVec Ideal S128x8192 .f32 :=
  sitofp .f32 (extui 32 (cmpf .one x1 (broadcast S128x8192 (Scalar.ofBits (F := Ideal) .f32 0x00000000#32))) natLt_1_32)

/-- Every entry's loss, `0` where the entry does not count. -/
def lossBlock (x0 x1 : FVec Ideal S128x8192 .f32) : FVec Ideal S128x8192 .f32 :=
  select (cmpf .one x1 (broadcast S128x8192 (Scalar.ofBits (F := Ideal) .f32 0x00000000#32)))
    (subf (broadcast S128x8192 (Scalar.ofBits (F := Ideal) .f32 0x3F800000#32))
      (addf (sqrt (addf (mulf x0 x1) (broadcast S128x8192 (Scalar.ofBits (F := Ideal) .f32 0x2B8CBCCC#32))))
        (sqrt (addf (mulf (subf (broadcast S128x8192 (Scalar.ofBits (F := Ideal) .f32 0x3F800000#32)) x0)
            (subf (broadcast S128x8192 (Scalar.ofBits (F := Ideal) .f32 0x3F800000#32)) x1))
          (broadcast S128x8192 (Scalar.ofBits (F := Ideal) .f32 0x2B8CBCCC#32))))))
    (broadcast S128x8192 (Scalar.ofBits (F := Ideal) .f32 0x00000000#32))

/-- A block's lane sums, as a column. -/
def column (v : FVec Ideal S128x8192 .f32) : FVec Ideal S128x1 .f32 :=
  shapeCast S128x1 (multiReduction .add [1] S128 v 0x00000000#32 reduces_S128x8192_S128 (.inl rfl) rfl) shapeCasts_S128_S128x1

/-- The stored column is built from the two columns of lane sums. -/
theorem pay_eq (x0 x1 : Vec Ideal S128x8192 .f32) :
    k0_pay1 (F := Ideal) x0 x1
      = select (cmpf .ogt (column (bitBlock x1)) (broadcast S128x1 (Scalar.ofBits (F := Ideal) .f32 0x00000000#32)))
          (divf (column (lossBlock x0 x1))
            (maximumf (column (bitBlock x1)) (broadcast S128x1 (Scalar.ofBits (F := Ideal) .f32 0x3F800000#32))))
          (broadcast S128x1 (Scalar.ofBits (F := Ideal) .f32 0x00000000#32)) := rfl

/-- Row `r` of a column of lane sums is the sum of the block's row `r`. -/
theorem column_apply (v : FVec Ideal S128x8192 .f32) (r : Fin 128) (q : Fin 1) :
    column v (ix2 r q) = ∑ k : Fin 8192, v (ix2 r k) :=
  (Lib.ColumnSum.shapeCast_column_apply _ shapeCasts_S128_S128x1 r q).trans
    (Lib.ColumnSum.lane_sum_apply v reduces_S128x8192_S128 (.inl rfl) rfl r)

/-- Row `r` of the stored column is the row loss of row `r` of the two loaded blocks. -/
theorem pay_apply (x0 x1 : Vec Ideal S128x8192 .f32) (r : Fin 128) (q : Fin 1) :
    k0_pay1 (F := Ideal) x0 x1 (ix2 r q) = MaskedLoss.rowLoss (fun k => x0 (ix2 r k)) (fun k => x1 (ix2 r k)) := by
  rw [pay_eq]
  simp only [select_apply, cmpf_apply, divf_apply, maximumf_apply, broadcast_apply, column_apply]
  rfl

end Cert.KernelIdeal.RowValue

end
-- ==== Proof.KernelArray.lean ====
/-
  From blocks to the whole output array.

  The grid has 128 points. At point `t` the two input windows hold rows `128·t … 128·t + 127` of `p` and of `g`, all
  8192 columns, and the output window is rows `128·t … 128·t + 127` of the `16384 × 1` output. Row `r` of the column
  the body stores is the row loss of row `r` of the two loaded blocks (`RowValue.pay_apply`), which is row
  `128·t + r` of `p` and of `g`. So what point `t` writes back is block `t` of ONE function of the argument arrays:
  `lossColumn p g (i) = ` the row loss of row `i 0`. Every row lies in the block of the point `row / 128`, so the
  blocks cover the output array, which therefore ends holding `lossColumn p g`.
-/
import proofs.«175779_j18829136626194_2_alg».proof.Proof.Gen.KernelIdeal.Frame
import proofs.«175779_j18829136626194_2_alg».proof.Proof.KernelRow
import Idealize.ShloMosaic.Lib.Pipeline.Value

noncomputable section

namespace Cert.KernelIdeal.ArrayValue

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The body's loads and its store start at the buffers' origin. -/
theorem origin : (![0, 0] : Fin 2 → Nat) = fun _ => 0 := funext fun a => by fin_cases a <;> rfl

/-- The output array as one function of the argument arrays: at `i`, the row loss of row `i 0`. -/
def lossColumn (p g : S16384x8192.Idx → EReal) : S16384x1.Idx → EReal :=
  fun i => MaskedLoss.rowLosses p g (i 0)

/-- The printed index maps over the grid: the three windows move together along the rows, one block of 128 rows per
    point, and none moves along the columns. -/
theorem idx_facts : ∀ t : Fin cfg0.N,
    win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_2.index t (1 : Fin 2) = 0 ∧ win0_2.index t (0 : Fin 2) ≤ 127 :=
  (by decide +kernel : ∀ t : Fin grid0.N, _)

/-- Every block of 128 rows is some point's. -/
theorem idx_onto : ∀ b : Fin 128, ∃ t : Fin cfg0.N, win0_2.index t = ![b.val, 0] :=
  (by decide +kernel : ∀ b : Fin 128, ∃ t : Fin grid0.N, win0_2.index t = ![b.val, 0])

/-- One stored row, over any two blocks whose row `r` is row `R` of `p` and of `g`: it is the row loss of row `R`. -/
theorem stored_row (p g : S16384x8192.Idx → EReal) (x0 x1 : Vec Ideal S128x8192 .f32) (R : Fin 16384) (r : Fin 128)
    (q : Fin 1) (h0 : ∀ k : Fin 8192, x0 (ix2 r k) = p (ix2 R k)) (h1 : ∀ k : Fin 8192, x1 (ix2 r k) = g (ix2 R k)) :
    k0_pay1 (F := Ideal) x0 x1 (ix2 r q) = MaskedLoss.rowLosses p g R := by
  rw [RowValue.pay_apply]
  unfold MaskedLoss.rowLosses
  simp only [h0, h1]

/-- The same at any index `y` of the stored column and any index `Y` of the output array, when row `y 0` of the two
    blocks is row `Y 0` of `p` and of `g`: the stored entry is `lossColumn` at `Y`. -/
theorem stored_entry (p g : S16384x8192.Idx → EReal) (x0 x1 : Vec Ideal S128x8192 .f32) (y : S128x1.Idx)
    (Y : S16384x1.Idx) (h0 : ∀ k : Fin 8192, x0 (ix2 (y 0) k) = p (ix2 (Y 0) k))
    (h1 : ∀ k : Fin 8192, x1 (ix2 (y 0) k) = g (ix2 (Y 0) k)) :
    k0_pay1 (F := Ideal) x0 x1 y = lossColumn p g Y := by
  obtain ⟨r, q, rfl⟩ : ∃ (r : Fin 128) (q : Fin 1), y = ix2 r q := ⟨y 0, y 1, eq_ix2 y⟩
  exact stored_row p g x0 x1 (Y 0) r q h0 h1

/-- WHAT POINT `t` WRITES BACK is block `t` of `lossColumn` of the argument arrays as the region finds them. -/
theorem flushed_eq (c : Dev nD) (t : Fin cfg0.N) :
    (dats m 0 c).flushed 2 t
      = ((cfg0.win 2).blk t).view.read (Elt Ideal) (lossColumn (V m c main_arg0) (V m c main_arg1)) := by
  show (cfg0.win 2).cut (grid0.coords t) ((dats m 0 c).after 2 t) = _
  rw [after0_2]
  unfold out0_2
  rw [View.canon_unit_zero origin]
  simp only [View.ld_unit_zero (S := S128x8192) origin]
  obtain ⟨e00, e01, e10, e11, e21, _⟩ := idx_facts t
  funext j
  generalize hG : lossColumn (V m c main_arg0) (V m c main_arg1) = G
  show k0_pay1 (F := Ideal) (iblk m c 0 t) (iblk m c 1 t) j = G (((cfg0.win 2).blk t).view.emb j)
  subst hG
  have hj : (j 0).val < 128 := (j 0).isLt
  refine stored_entry (V m c main_arg0) (V m c main_arg1) (iblk m c 0 t) (iblk m c 1 t) j _ (fun k => ?_) (fun k => ?_)
  · refine congrArg (V m c main_arg0) (funext fun a => Fin.ext ?_)
    match a with
    | ⟨0, _⟩ =>
      show win0_0.index t (0 : Fin 2) * 128 + 1 * (j 0).val = win0_2.index t (0 : Fin 2) * 128 + 1 * (j 0).val
      omega
    | ⟨1, _⟩ =>
      show win0_0.index t (1 : Fin 2) * 8192 + 1 * k.val = k.val
      omega
  · refine congrArg (V m c main_arg1) (funext fun a => Fin.ext ?_)
    match a with
    | ⟨0, _⟩ =>
      show win0_1.index t (0 : Fin 2) * 128 + 1 * (j 0).val = win0_2.index t (0 : Fin 2) * 128 + 1 * (j 0).val
      omega
    | ⟨1, _⟩ =>
      show win0_1.index t (1 : Fin 2) * 8192 + 1 * k.val = k.val
      omega

/-- An index of the output array is in point `t`'s block iff each coordinate is in the block's range on its axis. -/
theorem mem_blk (t : Fin cfg0.N) (i : S16384x1.Idx) :
    i ∈ ((cfg0.win 2).blk t).view.set
      ↔ ∀ a : Fin 2, win0_2.index t a * S128x1.size a ≤ (i a).val
          ∧ (i a).val < win0_2.index t a * S128x1.size a + S128x1.size a := by
  show i ∈ ((View.whole main_v0).slice (win0_2.rect t)).set ↔ _
  rw [View.set_slice_whole, Rect.mem_set_unit]
  exact Iff.rfl

/-- THE COVER: row `i 0` lies in the block of the point whose block index is `i 0 / 128`. -/
theorem cover (i : S16384x1.Idx) :
    ∃ t : Fin cfg0.N, (cfg0.win 2).flush t = true ∧ i ∈ ((cfg0.win 2).blk t).view.set := by
  have hi0 : (i 0).val < 16384 := (i 0).isLt
  have hi1 : (i 1).val < 1 := (i 1).isLt
  obtain ⟨t, ht⟩ := idx_onto ⟨(i 0).val / 128, by omega⟩
  have q0 : win0_2.index t (0 : Fin 2) = (i 0).val / 128 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 1 ≤ (i 1).val ∧ (i 1).val < win0_2.index t (1 : Fin 2) * 1 + 1
    omega

/-- THE OUTPUT ARRAY after the region: the column of row losses of the two argument arrays. -/
theorem final (c : Dev nD) :
    (dats m 0 c).arrAt 2 cfg0.N
      = lossColumn (m ((c : Thread nD τ).loc main_arg0)) (m ((c : Thread nD τ).loc main_arg1)) :=
  (dats m 0 c).arrAt_eq_of_cover 2 (lossColumn (V m c main_arg0) (V m c main_arg1))
    (fun t _ => flushed_eq m c t) cover

end Cert.KernelIdeal.ArrayValue

end
-- ==== Proof.LibIndexSums.lean ====
/-
  Sums over the indices of a vector and of a one-entry-per-row column, as sums over the row coordinate.

  An index of an `[n]` array is its one coordinate, and an index of an `[n, 1]` array is its row coordinate beside the
  only column coordinate `0`; so a sum over either index set is the sum over `a : Fin n` of the summand at `a`, resp.
  at `(a, 0)`.
-/
import Idealize.ShloMosaic.Lib.ValueIdx

noncomputable section

namespace Cert.Lib.IndexSums

open Idealize.ShloMosaic Idealize.ShloMosaic.ValueIdx

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- A sum over the indices of an `[n]` array is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of an `[n, 1]` array is the sum over its row coordinate, the column coordinate `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.Lib.IndexSums

end
-- ==== Proof.KernelRun.lean ====
/-
  The kernel program's run, read: the region's output array through the host lines after it.

  After the region, @main sums the `16384 × 1` output array over both axes from the zero word, divides by the float
  word of `16384`, and recasts the scalar as a `1 × 1` array (`tail`). The frame run states every buffer the region
  bypasses — the result buffer among them — at these lines' value of the region's exit contents, in which the output
  array holds the column of row losses (`ArrayValue.final`). A sum over the indices of a one-entry-per-row column is
  the sum over its rows, so the result is the mean of the rows' losses: `MaskedLoss.meanLoss` of the two arguments.
-/
import proofs.«175779_j18829136626194_2_alg».proof.Proof.Gen.KernelIdeal.Frame
import proofs.«175779_j18829136626194_2_alg».proof.Proof.KernelArray
import proofs.«175779_j18829136626194_2_alg».proof.Proof.LibIndexSums
import Idealize.ShloMosaic.Lib.StableHlo.Run
import Idealize.ShloMosaic.Lib.Pipeline.Value
import Idealize.ShloMosaic.PureOps.Ideal.Laws

noncomputable section

namespace Cert.KernelIdeal.RunValue

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The host lines after the region, as one function of the region's output array. -/
def tail (A : FVec Ideal S16384x1 .f32) : FVec Ideal S1x1 .f32 :=
  shapeCast S1x1 (Host.divf (F := Ideal)
    (Host.reduceAdd (F := Ideal) A (constant (F := Ideal) S_ .f32 0x00000000#32) reducesTo_S16384x1_S_d0_1 h_S_)
    (constant (F := Ideal) S_ .f32 0x46800000#32)) shapeCasts_S_S1x1

/-- Of the column of row losses, the host lines make the mean loss. -/
theorem tail_lossColumn (p g : S16384x8192.Idx → EReal) (i : S1x1.Idx) :
    tail (ArrayValue.lossColumn p g) i = MaskedLoss.meanLoss p g := by
  unfold tail
  rw [shapeCast_apply _ shapeCasts_S_S1x1 i ix0 (by
    have h0 : (S_.rowMajor ix0).val < 1 := (S_.rowMajor ix0).isLt
    have h1 : (S1x1.rowMajor i).val < 1 := (S1x1.rowMajor i).isLt
    omega)]
  show Ideal.div (Host.reduceAdd (F := Ideal) (ArrayValue.lossColumn p g) (constant (F := Ideal) S_ .f32 0x00000000#32)
    reducesTo_S16384x1_S_d0_1 h_S_ ix0) (Ideal.ofBits .f32 0x46800000#32) = _
  simp only [Host.reduceAdd, Ideal.hostReduceAdd_def]
  rw [Ideal.hostReduceAdd_total reducesTo_S16384x1_S_d0_1 (fun b => b.elim0), Lib.IndexSums.sum_idx_column]
  show Ideal.div (Ideal.ofBits .f32 0x00000000#32 + _) (Ideal.ofBits .f32 0x46800000#32) = _
  rw [Ideal.ofBits_zero_f32, zero_add]
  rfl

/-- The result buffer is none of the region's arrays and is not scoped: the region bypasses it. -/
theorem result_bypasses : main_v3 ∈ Pipeline.restRefs sig cfg0.spec :=
  Pipeline.mem_restRefs_of main_v3 rfl (fun w => by fin_cases w <;> decide)

/-- What the frame run states of the result buffer: the host lines' value of the region's output array. -/
theorem result_after (c : Dev nD) :
    Pipeline.afterTail₀ cfgs (dats m) 0 (V0 m) [hostOps1] c main_v3 = tail ((dats m 0 c).arrAt 2 cfg0.N) := by
  unfold Pipeline.afterTail₀
  show StableHlo.after hostOps1 _ (Proc.devRef .tc main_v3) = _
  after_results
  exact congrArg tail (Pipeline.withArrays_arr spec0 launch0.win.arr_inj c _ _ 2)

/-- The kernel program's run: the result buffer ends at the mean loss of the two argument arrays, which end unchanged. -/
theorem run : θ_run defs (onTc (τ := τ) (main (F := Ideal))) ⟨m, fun _ => 0, ρ⟩ fun r => ∀ c : Dev nD,
      r.2.mem ((c.tc : Thread nD τ).loc main_v3)
          = (fun _ => MaskedLoss.meanLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 result_bypasses).trans ((result_after m c).trans (by
          rw [ArrayValue.final]
          exact funext fun i => tail_lossColumn _ _ i)),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.RunValue

end
-- ==== Proof.RefRun.lean ====
/-
  The reference program's run, read back.

  The reference is a straight line of 49 host operations (each of its two masked selections is a call of a small
  function, and stands here as the three operations of that function's body, in the call's place). Run from any memory, every weakly fair execution terminates, the two argument
  arrays end as they began, and the result buffer ends at the operations' composed value of the two arguments. That
  value is stated here in stages, each a function of the argument arrays `p` and `g`:
    `mask g`        which entries count, `g ≠ 0`;
    `losses p g`    `1 - (√(p·g + ε) + √((1 - p)·(1 - g) + ε))` where the entry counts, `0` elsewhere;
    `rowSums p g`   each row's sum of those;
    `rowCounts g`   each row's number of counted entries: the bits summed as 32-bit integers, then converted;
    `rowLosses p g` `rowSums / max rowCounts 1` where `rowCounts > 0`, `0` elsewhere;
    `result p g`    the sum of the rows' losses over `16384`, as a `1 × 1` array.
  The stages are generic in the float instance; the comparison `rowCounts > 0` has an integer-to-float conversion on one
  side and a constant on the other, so its instance is named explicitly.
-/
import proofs.«175779_j18829136626194_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The result, in stages -/

/-- A float word spread over the whole array. -/
def splat (b : BitVec 32) : (⟨S16384x8192, .f32⟩ : BufTy).Contents (Elt F) :=
  broadcastInDim S16384x8192 ![] bcast_S_S16384x8192 (constant S_ .f32 b)

/-- A float word spread over a vector with one entry per row. -/
def splatRows (b : BitVec 32) : (⟨S16384, .f32⟩ : BufTy).Contents (Elt F) :=
  broadcastInDim S16384 ![] bcast_S_S16384 (constant S_ .f32 b)

/-- Which entries count: `g ≠ 0`. -/
def mask (g : (⟨S16384x8192, .f32⟩ : BufTy).Contents (Elt F)) : (⟨S16384x8192, .i1⟩ : BufTy).Contents (Elt F) :=
  cmpf .une g (splat (F := F) 0x00000000#32)

/-- Every entry's loss, `0` where the entry does not count. -/
def losses (p g : (⟨S16384x8192, .f32⟩ : BufTy).Contents (Elt F)) : (⟨S16384x8192, .f32⟩ : BufTy).Contents (Elt F) :=
  select (mask g)
    (subf (splat 0x3F800000#32)
      (addf (Host.sqrt (addf (mulf p g) (splat 0x2B8CBCCC#32)))
        (Host.sqrt (addf (mulf (subf (splat 0x3F800000#32) p) (subf (splat 0x3F800000#32) g)) (splat 0x2B8CBCCC#32)))))
    (splat 0x00000000#32)

/-- Each row's sum of its entries' losses. -/
def rowSums (p g : (⟨S16384x8192, .f32⟩ : BufTy).Contents (Elt F)) : (⟨S16384, .f32⟩ : BufTy).Contents (Elt F) :=
  Host.reduceAdd (losses p g) (constant S_ .f32 0x00000000#32) reducesTo_S16384x8192_S16384_d1 h_S_

/-- Each row's number of counted entries: the mask's bits widened and summed as 32-bit integers, the sum converted. -/
def rowCounts (g : (⟨S16384x8192, .f32⟩ : BufTy).Contents (Elt F)) : (⟨S16384, .f32⟩ : BufTy).Contents (Elt F) :=
  sitofp .f32 (Host.reduce IntOp.addi (extui 32 (mask g) natLt_1_32) (constantI S_ 32 0#32) reducesTo_S16384x8192_S16384_d1 h_S_)

/-- Each row's loss. -/
def rowLosses (p g : (⟨S16384x8192, .f32⟩ : BufTy).Contents (Elt F)) : (⟨S16384, .f32⟩ : BufTy).Contents (Elt F) :=
  select (cmpf .ogt (rowCounts (F := F) g) (splatRows (F := F) 0x00000000#32))
    (Host.divf (rowSums p g) (maximumf (rowCounts g) (splatRows 0x3F800000#32)))
    (splatRows 0x00000000#32)

/-- The result: the rows' losses summed, over `16384`. -/
def result (p g : (⟨S16384x8192, .f32⟩ : BufTy).Contents (Elt F)) : (⟨S1x1, .f32⟩ : BufTy).Contents (Elt F) :=
  shapeCast _ (Host.divf (Host.reduceAdd (rowLosses p g) (constant S_ .f32 0x00000000#32) reducesTo_S16384_S_d0 h_S_)
    (constant S_ .f32 0x46800000#32)) shapeCasts_S_S1x1

/-! ## The program as a list of operations, and its run -/

/-- @main's 49 operations, in order. -/
abbrev ops : List (HloOp τ sig (Elt F)) :=
  [ StableHlo.nullary main_cst (constant S_ .f32 0x00000000#32),
    StableHlo.unary main_cst main_v0 (broadcastInDim S16384x8192 ![] bcast_S_S16384x8192 : (⟨S_, .f32⟩ : BufTy).Contents (Elt F) → (⟨S16384x8192, .f32⟩ : BufTy).Contents (Elt F)),
    StableHlo.binary main_arg1 main_v0 main_v1 (cmpf .une : (⟨S16384x8192, .f32⟩ : BufTy).Contents (Elt F) → (⟨S16384x8192, .f32⟩ : BufTy).Contents (Elt F) → (⟨S16384x8192, .i1⟩ : BufTy).Contents (Elt F)),
    StableHlo.binary main_arg0 main_arg1 main_v2 (mulf : (⟨S16384x8192, .f32⟩ : BufTy).Contents (Elt F) → (⟨S16384x8192, .f32⟩ : BufTy).Contents (Elt F) → (⟨S16384x8192, .f32⟩ : BufTy).Contents (Elt F)),
    StableHlo.nullary main_cst_0 (constant S_ .f32 0x2B8CBCCC#32),
    StableHlo.unary main_cst_0 main_v3 (broadcastInDim S16384x8192 ![] bcast_S_S16384x8192 : (⟨S_, .f32⟩ : BufTy).Contents (Elt F) → (⟨S16384x8192, .f32⟩ : BufTy).Contents (Elt F)),
    StableHlo.binary main_v2 main_v3 main_v4 (addf : (⟨S16384x8192, .f32⟩ : BufTy).Contents (Elt F) → (⟨S16384x8192, .f32⟩ : BufTy).Contents (Elt F) → (⟨S16384x8192, .f32⟩ : BufTy).Contents (Elt F)),
    StableHlo.unary main_v4 main_v5 (Host.sqrt : (⟨S16384x8192, .f32⟩ : BufTy).Contents (Elt F) → (⟨S16384x8192, .f32⟩ : BufTy).Contents (Elt F)),
    StableHlo.nullary main_cst_1 (constant S_ .f32 0x3F800000#32),
    StableHlo.unary main_cst_1 main_v6 (broadcastInDim S16384x8192 ![] bcast_S_S16384x8192 : (⟨S_, .f32⟩ : BufTy).Contents (Elt F) → (⟨S16384x8192, .f32⟩ : BufTy).Contents (Elt F)),
    StableHlo.binary main_v6 main_arg0 main_v7 (subf : (⟨S16384x8192, .f32⟩ : BufTy).Contents (Elt F) → (⟨S16384x8192, .f32⟩ : BufTy).Contents (Elt F) → (⟨S16384x8192, .f32⟩ : BufTy).Contents (Elt F)),
    StableHlo.nullary main_cst_2 (constant S_ .f32 0x3F800000#32),
    StableHlo.unary main_cst_2 main_v8 (broadcastInDim S16384x8192 ![] bcast_S_S16384x8192 : (⟨S_, .f32⟩ : BufTy).Contents (Elt F) → (⟨S16384x8192, .f32⟩ : BufTy).Contents (Elt F)),
    StableHlo.binary main_v8 main_arg1 main_v9 (subf : (⟨S16384x8192, .f32⟩ : BufTy).Contents (Elt F) → (⟨S16384x8192, .f32⟩ : BufTy).Contents (Elt F) → (⟨S16384x8192, .f32⟩ : BufTy).Contents (Elt F)),
    StableHlo.binary main_v7 main_v9 main_v10 (mulf : (⟨S16384x8192, .f32⟩ : BufTy).Contents (Elt F) → (⟨S16384x8192, .f32⟩ : BufTy).Contents (Elt F) → (⟨S16384x8192, .f32⟩ : BufTy).Contents (Elt F)),
    StableHlo.nullary main_cst_3 (constant S_ .f32 0x2B8CBCCC#32),
    StableHlo.unary main_cst_3 main_v11 (broadcastInDim S16384x8192 ![] bcast_S_S16384x8192 : (⟨S_, .f32⟩ : BufTy).Contents (Elt F) → (⟨S16384x8192, .f32⟩ : BufTy).Contents (Elt F)),
    StableHlo.binary main_v10 main_v11 main_v12 (addf : (⟨S16384x8192, .f32⟩ : BufTy).Contents (Elt F) → (⟨S16384x8192, .f32⟩ : BufTy).Contents (Elt F) → (⟨S16384x8192, .f32⟩ : BufTy).Contents (Elt F)),
    StableHlo.unary main_v12 main_v13 (Host.sqrt : (⟨S16384x8192, .f32⟩ : BufTy).Contents (Elt F) → (⟨S16384x8192, .f32⟩ : BufTy).Contents (Elt F)),
    StableHlo.binary main_v5 main_v13 main_v14 (addf : (⟨S16384x8192, .f32⟩ : BufTy).Contents (Elt F) → (⟨S16384x8192, .f32⟩ : BufTy).Contents (Elt F) → (⟨S16384x8192, .f32⟩ : BufTy).Contents (Elt F)),
    StableHlo.nullary main_cst_4 (constant S_ .f32 0x3F800000#32),
    StableHlo.unary main_cst_4 main_v15 (broadcastInDim S16384x8192 ![] bcast_S_S16384x8192 : (⟨S_, .f32⟩ : BufTy).Contents (Elt F) → (⟨S16384x8192, .f32⟩ : BufTy).Contents (Elt F)),
    StableHlo.binary main_v15 main_v14 main_v16 (subf : (⟨S16384x8192, .f32⟩ : BufTy).Contents (Elt F) → (⟨S16384x8192, .f32⟩ : BufTy).Contents (Elt F) → (⟨S16384x8192, .f32⟩ : BufTy).Contents (Elt F)),
    StableHlo.nullary main_cst_5 (constant S_ .f32 0x00000000#32),
    StableHlo.TRef.unary (StableHlo.TRef.of (T := ⟨S_, .f32⟩) main_cst_5) main_call0.v0 id,
    StableHlo.TRef.unary main_call0.v0 main_call0.v1 (broadcastInDim S16384x8192 ![] bcast_S_S16384x8192),
    StableHlo.TRef.ternary (StableHlo.TRef.of (T := ⟨S16384x8192, .i1⟩) main_v1) (StableHlo.TRef.of (T := ⟨S16384x8192, .f32⟩) main_v16) main_call0.v1 main_call0.v2 select,
    StableHlo.nullary main_cst_6 (constant S_ .f32 0x00000000#32),
    StableHlo.binary main_v17 main_cst_6 main_v18 ((fun x v => Host.reduceAdd x v reducesTo_S16384x8192_S16384_d1 h_S_) : (⟨S16384x8192, .f32⟩ : BufTy).Contents (Elt F) → (⟨S_, .f32⟩ : BufTy).Contents (Elt F) → (⟨S16384, .f32⟩ : BufTy).Contents (Elt F)),
    StableHlo.unary main_v1 main_v19 ((extui 32 · natLt_1_32) : (⟨S16384x8192, .i1⟩ : BufTy).Contents (Elt F) → (⟨S16384x8192, .i32⟩ : BufTy).Contents (Elt F)),
    StableHlo.nullary main_c (constantI S_ 32 0#32),
    StableHlo.binary main_v19 main_c main_v20 ((fun x v => Host.reduce IntOp.addi x v reducesTo_S16384x8192_S16384_d1 h_S_) : (⟨S16384x8192, .i32⟩ : BufTy).Contents (Elt F) → (⟨S_, .i32⟩ : BufTy).Contents (Elt F) → (⟨S16384, .i32⟩ : BufTy).Contents (Elt F)),
    StableHlo.unary main_v20 main_v21 (sitofp .f32 : (⟨S16384, .i32⟩ : BufTy).Contents (Elt F) → (⟨S16384, .f32⟩ : BufTy).Contents (Elt F)),
    StableHlo.nullary main_cst_7 (constant S_ .f32 0x00000000#32),
    StableHlo.unary main_cst_7 main_v22 (broadcastInDim S16384 ![] bcast_S_S16384 : (⟨S_, .f32⟩ : BufTy).Contents (Elt F) → (⟨S16384, .f32⟩ : BufTy).Contents (Elt F)),
    StableHlo.binary main_v21 main_v22 main_v23 (cmpf .ogt : (⟨S16384, .f32⟩ : BufTy).Contents (Elt F) → (⟨S16384, .f32⟩ : BufTy).Contents (Elt F) → (⟨S16384, .i1⟩ : BufTy).Contents (Elt F)),
    StableHlo.nullary main_cst_8 (constant S_ .f32 0x3F800000#32),
    StableHlo.unary main_cst_8 main_v24 (broadcastInDim S16384 ![] bcast_S_S16384 : (⟨S_, .f32⟩ : BufTy).Contents (Elt F) → (⟨S16384, .f32⟩ : BufTy).Contents (Elt F)),
    StableHlo.binary main_v21 main_v24 main_v25 (maximumf : (⟨S16384, .f32⟩ : BufTy).Contents (Elt F) → (⟨S16384, .f32⟩ : BufTy).Contents (Elt F) → (⟨S16384, .f32⟩ : BufTy).Contents (Elt F)),
    StableHlo.binary main_v18 main_v25 main_v26 (Host.divf : (⟨S16384, .f32⟩ : BufTy).Contents (Elt F) → (⟨S16384, .f32⟩ : BufTy).Contents (Elt F) → (⟨S16384, .f32⟩ : BufTy).Contents (Elt F)),
    StableHlo.nullary main_cst_9 (constant S_ .f32 0x00000000#32),
    StableHlo.TRef.unary (StableHlo.TRef.of (T := ⟨S_, .f32⟩) main_cst_9) main_call1.v0 id,
    StableHlo.TRef.unary main_call1.v0 main_call1.v1 (broadcastInDim S16384 ![] bcast_S_S16384),
    StableHlo.TRef.ternary (StableHlo.TRef.of (T := ⟨S16384, .i1⟩) main_v23) (StableHlo.TRef.of (T := ⟨S16384, .f32⟩) main_v26) main_call1.v1 main_call1.v2 select,
    StableHlo.nullary main_cst_10 (constant S_ .f32 0x00000000#32),
    StableHlo.binary main_v27 main_cst_10 main_v28 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    StableHlo.nullary main_cst_11 (constant S_ .f32 0x46800000#32),
    StableHlo.binary main_v28 main_cst_11 main_v29 (Host.divf : (⟨S_, .f32⟩ : BufTy).Contents (Elt F) → (⟨S_, .f32⟩ : BufTy).Contents (Elt F) → (⟨S_, .f32⟩ : BufTy).Contents (Elt F)),
    StableHlo.reshape main_v29 main_v30 rfl shapeCasts_S_S1x1 ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., binary_bufs_sub .., nullary_bufs_sub .., binary_bufs_sub .., reshape_bufs_sub ..⟩

set_option maxRecDepth 8192 in
set_option maxHeartbeats 2000000 in
/-- From any memory with zero counters, every weakly fair execution of @main terminates with the result buffer at
    `result` of the two argument arrays, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30)
          = result (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v30).trans (by after_results_simp <;> rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RefValue

end
-- ==== Proof.LibBitCount.lean ====
/-
  Counting by integers and counting by floats agree.

  A row has 8192 entries, each contributing a bit. Summing the bits as 32-bit integers wraps modulo `2^32`, but a sum
  of fewer than `2^31` zeros and ones never reaches the modulus nor the sign bit, so the wrapped sum read as a signed
  integer is the true count; and the true count as a real is the sum of the bits as reals. So converting the integer sum
  to a float, and summing the bits converted to floats, give one extended real.
-/
import Idealize.ShloMosaic.PureOps.Ideal
import Idealize.ShloMosaic.PureOps.Reduce

noncomputable section

namespace Cert.Lib.BitCount

open Idealize.ShloMosaic

/-- The coercion of the reals into the extended reals commutes with a finite sum. -/
theorem coe_sum {ι : Type} (S : Finset ι) (f : ι → ℝ) :
    ((∑ k ∈ S, f k : ℝ) : EReal) = ∑ k ∈ S, ((f k : ℝ) : EReal) := by
  classical
  induction S using Finset.induction_on with
  | empty => simp
  | insert a S ha ih => rw [Finset.sum_insert ha, Finset.sum_insert ha, EReal.coe_add, ih]

/-- A bit widened to 32 bits, read unsigned, is the bit. -/
theorem toNat_widen (b : BitVec 1) : (b.setWidth 32).toNat = b.toNat := by
  have h : b.toNat < 2 := b.isLt
  rw [BitVec.toNat_setWidth]
  omega

/-- The wrapping 32-bit sum of fewer than `2^32` widened bits, read unsigned, is the number of ones, which is at most
    the number of summands: no step of the sum reaches the modulus. -/
theorem toNat_fold_bits {ι : Type} [DecidableEq ι] (b : ι → BitVec 1) (S : Finset ι) (hS : S.card < 4294967296) :
    (S.fold IntOp.addi 0#32 (fun k => (b k).setWidth 32)).toNat = ∑ k ∈ S, (b k).toNat
      ∧ ∑ k ∈ S, (b k).toNat ≤ S.card := by
  induction S using Finset.induction_on with
  | empty => exact ⟨rfl, le_refl _⟩
  | insert a S ha ih =>
    rw [Finset.card_insert_of_notMem ha] at hS
    obtain ⟨e, le⟩ := ih (by omega)
    have h1 : (b a).toNat < 2 := (b a).isLt
    rw [Finset.fold_insert ha, Finset.sum_insert ha, Finset.card_insert_of_notMem ha]
    refine ⟨?_, by omega⟩
    show ((b a).setWidth 32 + S.fold IntOp.addi 0#32 (fun k => (b k).setWidth 32)).toNat = _
    rw [BitVec.toNat_add, e, toNat_widen]
    norm_num
    omega

/-- So for a row of fewer than `2^31` entries: the 32-bit sum of the widened bits, read SIGNED and as a real, is the sum
    of the widened bits each read signed and as a real. -/
theorem count_eq {n : Nat} (hn : n < 2147483648) (b : Fin n → BitVec 1) :
    ((((Finset.univ : Finset (Fin n)).fold IntOp.addi 0#32 (fun k => (b k).setWidth 32)).toInt : ℝ) : EReal)
      = ∑ k : Fin n, (((((b k).setWidth 32).toInt : ℤ) : ℝ) : EReal) := by
  obtain ⟨e, le⟩ := toNat_fold_bits b Finset.univ (by rw [Finset.card_univ, Fintype.card_fin]; omega)
  rw [Finset.card_univ, Fintype.card_fin] at le
  have hx : ((Finset.univ : Finset (Fin n)).fold IntOp.addi 0#32 (fun k => (b k).setWidth 32)).toInt
      = ((∑ k : Fin n, (b k).toNat : ℕ) : ℤ) := by
    rw [BitVec.toInt_eq_toNat_of_lt (by rw [e]; omega), e]
  have hk : ∀ k : Fin n, ((b k).setWidth 32).toInt = (((b k).toNat : ℕ) : ℤ) := fun k => by
    have h1 : (b k).toNat < 2 := (b k).isLt
    rw [BitVec.toInt_eq_toNat_of_lt (by rw [toNat_widen]; omega), toNat_widen]
  rw [hx]
  simp only [hk]
  push_cast
  exact coe_sum _ _

end Cert.Lib.BitCount

end
-- ==== Proof.RefRead.lean ====
/-
  The reference's result, read down to the specification.

  Stage by stage, at the extended reals: a splat is its word at every index; the mask at an entry is `counts` of `g`
  there; an entry's loss is `entry`; a row's sum is the zero word plus the sum over the row, and the zero word is `0`;
  a row's count is the 32-bit integer sum of the row's widened bits converted to a float, which is the sum of the bits
  each converted (`Lib.BitCount.count_eq`: 8192 ones cannot wrap or reach the sign bit); so a row's loss is
  `MaskedLoss.rowLoss` of the row, and the `1 × 1` result is `MaskedLoss.meanLoss` of the two arrays — the total sum over
  the `[16384]` vector re-indexed by the row coordinate.
-/
import proofs.«175779_j18829136626194_2_alg».proof.Proof.RefRun
import proofs.«175779_j18829136626194_2_alg».proof.Proof.Spec
import proofs.«175779_j18829136626194_2_alg».proof.Proof.LibBitCount
import proofs.«175779_j18829136626194_2_alg».proof.Proof.LibIndexSums
import Idealize.ShloMosaic.Lib.Pipeline.Value
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.ValueIdx

/-- The second axis of the array is the one the row reductions drop. -/
theorem reducesRows : S16384x8192.Reduces [1] S16384 := by decide

/-- Row `r` with the dropped coordinate `k` put back is the entry `(r, k)`. -/
theorem lift_row (r : Fin 16384) (k : Fin 8192) : reducesRows.lift (ix1 r) k = ix2 r k :=
  funext fun a => Fin.ext (by
    match a with
    | ⟨0, _⟩ => rfl
    | ⟨1, _⟩ => rfl)

theorem splat_apply (b : BitVec 32) (i : S16384x8192.Idx) : splat (F := Ideal) b i = Ideal.ofBits .f32 b := by
  unfold splat
  exact broadcastInDim_apply _ bcast_S_S16384x8192 (constant (F := Ideal) S_ .f32 b) i (fun a => a.elim0) (fun a => a.elim0)

theorem splatRows_apply (b : BitVec 32) (j : S16384.Idx) : splatRows (F := Ideal) b j = Ideal.ofBits .f32 b := by
  unfold splatRows
  exact broadcastInDim_apply _ bcast_S_S16384 (constant (F := Ideal) S_ .f32 b) j (fun a => a.elim0) (fun a => a.elim0)

theorem hostSqrt_apply {s : Shape} (x : FVec Ideal s .f32) (i : s.Idx) : Host.sqrt x i = Ideal.sqrt (x i) := rfl

theorem hostDivf_apply {s : Shape} (x y : FVec Ideal s .f32) (i : s.Idx) : Host.divf x y i = Ideal.div (x i) (y i) := rfl

/-- The mask at an entry: whether `g` there counts. -/
theorem mask_apply (g : FVec Ideal S16384x8192 .f32) (i : S16384x8192.Idx) :
    mask (F := Ideal) g i = MaskedLoss.counts (g i) := by
  unfold mask
  rw [cmpf_apply, splat_apply]
  rfl

/-- An entry's loss. -/
theorem losses_apply (p g : FVec Ideal S16384x8192 .f32) (i : S16384x8192.Idx) :
    losses (F := Ideal) p g i = MaskedLoss.entry (p i) (g i) := by
  unfold losses
  rw [select_apply, mask_apply]
  simp only [subf_apply, addf_apply, mulf_apply, splat_apply, hostSqrt_apply]
  rfl

/-- The host's float sum along the rows: the initial value plus the sum over the row. -/
theorem host_row_sum (y : FVec Ideal S16384x8192 .f32) (init : FVec Ideal S_ .f32) (r : Fin 16384) :
    Host.reduceAdd (F := Ideal) y init reducesTo_S16384x8192_S16384_d1 h_S_ (ix1 r)
      = init (Shape.Idx.first h_S_) + ∑ k : Fin 8192, y (ix2 r k) := by
  simp only [Host.reduceAdd, Ideal.hostReduceAdd_def]
  rw [Ideal.hostReduceAdd_single reducesTo_S16384x8192_S16384_d1 reducesRows]
  exact congrArg (_ + ·) (Finset.sum_congr rfl fun k _ => congrArg y (lift_row r k))

/-- A row's sum of losses. -/
theorem rowSums_apply (p g : FVec Ideal S16384x8192 .f32) (r : Fin 16384) :
    rowSums (F := Ideal) p g (ix1 r) = ∑ k : Fin 8192, MaskedLoss.entry (p (ix2 r k)) (g (ix2 r k)) := by
  unfold rowSums
  rw [host_row_sum]
  simp only [losses_apply]
  show Ideal.ofBits .f32 0x00000000#32 + _ = _
  rw [Ideal.ofBits_zero_f32, zero_add]

/-- A row's count: the integer sum of the widened bits, converted, is the sum of the bits converted. -/
theorem rowCounts_apply (g : FVec Ideal S16384x8192 .f32) (r : Fin 16384) :
    rowCounts (F := Ideal) g (ix1 r) = MaskedLoss.rowCount (fun k => g (ix2 r k)) := by
  unfold rowCounts MaskedLoss.rowCount
  rw [sitofp_apply, Host.reduce_eq_fold_single IntOp.addi _ _ reducesTo_S16384x8192_S16384_d1 reducesRows h_S_ (ix1 r)]
  show ((((Finset.univ : Finset (Fin 8192)).fold IntOp.addi 0#32
      (fun k => (mask (F := Ideal) g (reducesRows.lift (ix1 r) k)).setWidth 32)).toInt : ℝ) : EReal) = _
  refine (Lib.BitCount.count_eq (n := 8192) (by norm_num)
    (fun k => mask (F := Ideal) g (reducesRows.lift (ix1 r) k))).trans ?_
  exact Finset.sum_congr rfl fun k _ => by rw [lift_row, mask_apply]

/-- A row's loss is the specification's, of that row of the two arrays. -/
theorem rowLosses_apply (p g : FVec Ideal S16384x8192 .f32) (r : Fin 16384) :
    rowLosses (F := Ideal) p g (ix1 r) = MaskedLoss.rowLosses p g r := by
  unfold rowLosses
  rw [select_apply, cmpf_apply, hostDivf_apply, maximumf_apply, rowSums_apply, rowCounts_apply]
  simp only [splatRows_apply]
  rfl

/-- The result's one entry is the mean of the rows' losses. -/
theorem result_apply (p g : FVec Ideal S16384x8192 .f32) (i : S1x1.Idx) :
    result (F := Ideal) p g i = MaskedLoss.meanLoss p g := by
  unfold result
  rw [shapeCast_apply _ shapeCasts_S_S1x1 i ix0 (by
    have h0 : (S_.rowMajor ix0).val < 1 := (S_.rowMajor ix0).isLt
    have h1 : (S1x1.rowMajor i).val < 1 := (S1x1.rowMajor i).isLt
    omega)]
  rw [hostDivf_apply]
  simp only [Host.reduceAdd, Ideal.hostReduceAdd_def]
  rw [Ideal.hostReduceAdd_total reducesTo_S16384_S_d0 (fun b => b.elim0), Lib.IndexSums.sum_idx1]
  simp only [rowLosses_apply]
  show Ideal.div (Ideal.ofBits .f32 0x00000000#32 + _) (Ideal.ofBits .f32 0x46800000#32) = _
  rw [Ideal.ofBits_zero_f32, zero_add]
  rfl

/-- So the result is the `1 × 1` array holding the mean loss. -/
theorem result_eq (p g : FVec Ideal S16384x8192 .f32) :
    result (F := Ideal) p g = fun _ => MaskedLoss.meanLoss p g :=
  funext fun i => result_apply p g i

end Cert.ReferenceIdeal.RefValue

end
-- ==== Proof.lean ====
/-
  The masked fidelity loss: a row-blocked kernel against its plain array reference, over the extended reals.

  Both programs take two `16384 × 8192` arrays `p`, `g` and return a `1 × 1` array holding
      (1 / 16384) · Σ_rows  L(row),
      L(row) = (Σ_k e(p_k, g_k)) / max(n, 1)  if n > 0, else 0,
      e(p, g) = 1 - (√(p·g + ε) + √((1 - p)·(1 - g) + ε))  if g ≠ 0, else 0,   n = #{k : g_k ≠ 0},
  with `ε` the float nearest `1e-12` (`MaskedLoss.meanLoss`, Proof/Spec.lean). The kernel computes `L` for 128 rows
  at each of 128 grid points, counting the non-zero entries by summing their bits AS FLOATS, and leaves the mean to
  three host lines after the region; the reference computes everything on whole arrays, counting by summing the bits
  AS 32-BIT INTEGERS and converting the sum. The two agree because

    * a row has 8192 < 2^31 entries, so the integer sum neither wraps nor reaches the sign bit, and the count as a real
      is the sum of the bits as reals (Proof/LibBitCount.lean);
    * the kernel's ordered `g ≠ 0` and the reference's unordered one are one function on the extended reals, as are
      the kernel's and the host's square root and quotient;
    * a row's sum along the lanes of a block is the row's sum in the whole array, and the `16384 × 1` column of row
      losses summed over both axes is the `16384` vector of them summed over its one axis (Proof/LibIndexSums.lean).

  No step moves a factor across a sum or cancels anything, so nothing here needs the inputs to be finite: the
  precondition is never opened. The ideal pass rewrote nothing in the kernel, so `preserves` has no conjunct.
  The modules: Spec (the function), LibBitCount, LibColumnSum, LibIndexSums (the three facts above and two index readings), KernelRow
  (one stored row is `L` of that row of the blocks), KernelArray (the blocks tile the output array, which ends holding
  the column of `L`), KernelRun (the host lines after the region make the mean), RefRun (the reference's 49 host
  operations and its run) and RefRead (its result is the same function).
-/
import proofs.«175779_j18829136626194_2_alg».proof.Defs
import proofs.«175779_j18829136626194_2_alg».proof.Proof.Gen.Kernel
import proofs.«175779_j18829136626194_2_alg».proof.Proof.Gen.Kernel.Skeleton
import proofs.«175779_j18829136626194_2_alg».proof.Proof.Gen.Kernel.Launch
import proofs.«175779_j18829136626194_2_alg».proof.Proof.Gen.Kernel.Points
import proofs.«175779_j18829136626194_2_alg».proof.Proof.Gen.Kernel.Frame
import proofs.«175779_j18829136626194_2_alg».proof.Proof.Gen.KernelIdeal
import proofs.«175779_j18829136626194_2_alg».proof.Proof.Gen.KernelIdeal.Skeleton
import proofs.«175779_j18829136626194_2_alg».proof.Proof.Gen.KernelIdeal.Launch
import proofs.«175779_j18829136626194_2_alg».proof.Proof.Gen.KernelIdeal.Points
import proofs.«175779_j18829136626194_2_alg».proof.Proof.Gen.KernelIdeal.Frame
import proofs.«175779_j18829136626194_2_alg».proof.Proof.Gen.ReferenceIdeal
import proofs.«175779_j18829136626194_2_alg».proof.Proof.Gen.Pre_finite_inputs
import proofs.«175779_j18829136626194_2_alg».proof.Proof.KernelRun
import proofs.«175779_j18829136626194_2_alg».proof.Proof.RefRun
import proofs.«175779_j18829136626194_2_alg».proof.Proof.RefRead
import Idealize.ShloMosaic.Adequacy
import Idealize.ShloMosaic.Init

noncomputable section

namespace Cert.Proof

open Idealize.ShloMosaic Idealize.SL.Sem

/-- The kernel as printed runs and keeps its arguments: its launch and body are literal rectangles. -/
theorem frame_kernel : Cert.frame_Kernel := fun m ρ _ => Cert.Kernel.Gen.frame m ρ

/-- So does its idealization, the same text read at the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.RefValue.run (F := Ideal) m ρ)

/-- The ideal pass rewrote no operation of the kernel: there is nothing to restate. -/
theorem preserves : Cert.preserves_Kernel_KernelIdeal := trivial

/-- From memories agreeing on `p` and `g`, the kernel program's result buffer ends at the mean loss of its
    arguments (`RunValue.run`), and the reference's at its staged result of the same arrays, which is that mean loss
    (`RefValue.result_eq`). -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
